-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1x4096x4096 : Shape := ⟨3, ![1, 4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1x4096x4096 : S_.BroadcastsInDim S1x4096x4096 (![] : Fin 0 → Fin S1x4096x4096.rank)
  reducesTo_S1x4096x4096_S_d0_1_2 : S1x4096x4096.ReducesTo [0, 1, 2] S_
  bcast_S_S1x4096 : S_.BroadcastsInDim S1x4096 (![] : Fin 0 → Fin S1x4096.rank)
  reducesTo_S1x4096_S_d0_1 : S1x4096.ReducesTo [0, 1] S_

variable [Facts]

def fn {F : FTy → Type} [FloatOps F] (main_arg0 : FVec F S4096x4096 .f32) (main_arg1 : FVec F S1x4096x4096 .f32) (main_arg2 : FVec F S1x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1x4096x4096 .f32 := Host.absf main_arg1
  let main_cst_0 : FVec F S_ .f32 := constant S_ .f32 0x7F800000#32
  let main_v5 : FVec F S1x4096x4096 .f32 := broadcastInDim S1x4096x4096 ![] bcast_S_S1x4096x4096 main_cst_0
  let main_v6 : IVec S1x4096x4096 1 := cmpf .olt main_v4 main_v5
  let main_c_1 : IVec S_ 1 := constantI S_ 1 1#1
  let main_v7 : IVec S_ 1 := (fun x v => Host.reduce IntOp.andi x v reducesTo_S1x4096x4096_S_d0_1_2 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  main_v13
-- ==== Kernel.lean ====
abbrev S4096x4096 : Shape := ⟨2, ![4096, 4096]⟩
abbrev S1x4096x4096 : Shape := ⟨3, ![1, 4096, 4096]⟩
abbrev S1x4096 : Shape := ⟨2, ![1, 4096]⟩
abbrev S2048x256 : Shape := ⟨2, ![2048, 256]⟩
abbrev S256x1024 : Shape := ⟨2, ![256, 1024]⟩
abbrev S1x1024 : Shape := ⟨2, ![1, 1024]⟩
abbrev S2048x1024 : Shape := ⟨2, ![2048, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1x4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .local _ .vmem, ⟨0, _⟩ => ⟨S2048x256, .f32⟩
  | .local _ .vmem, ⟨1, _⟩ => ⟨S2048x256, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S1x4096x4096_S4096x4096 : S1x4096x4096.ShapeCasts S4096x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  broadcasts_S1x1024_S2048x1024 : S1x1024.Broadcasts S2048x1024
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .f32 = 32 ∨ (Rect.block (s := S4096x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x4096.size a
  hwx0_1 : ∀ i : grid0.Coords, EltTy.bits .f32 = 32 ∨ (Rect.block (s := S4096x4096) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S1x4096x4096 : Shape := ⟨3, ![1, 4096, 4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S1x4096x4096_S4096x4096 : S1x4096x4096.ShapeCasts S4096x4096
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.BodyPieces.lean ====
/-
  What one grid step leaves behind, as pure terms of the blocks it loads.

  The kernel body keeps a running [2048, 1024] tile in a scratch buffer.  At the first step along the contracted axis it
  stores the zero tile and then adds this step's product of the [2048, 256] block of the left operand with the [256, 1024]
  block of the right operand; at every later step it adds the product to what the scratch held; at the last step it also
  stores the scratch tile plus the bias row, laid along the rows, into the output block.  Each store writes its whole
  buffer through the rectangle at offset zero, and each load reads a whole buffer, so what a buffer holds after the step
  is the payload of its last store, with the loads replaced by the contents loaded.  The statements hold for any float
  values.
-/
import proofs.«151996_j40321152975111_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Step

open Cert.KernelIdeal Cert.KernelIdeal.Gen

variable {F : FTy → Type} [FloatOps F]

/-- The offsets of a whole-buffer access are zero on both axes. -/
theorem offsets_zero : (![0, 0] : Fin 2 → Nat) = fun _ => 0 := funext fun a => by fin_cases a <;> rfl

/-- The running tile after one more step: what it held plus the product of this step's two blocks. -/
abbrev accumulate (x0 : Vec F S2048x256 .f32) (x1 : Vec F S256x1024 .f32) (acc : Vec F S2048x1024 .f32) :
    Vec F S2048x1024 .f32 := k0_pay2 x0 x1 acc

/-- The running tile the first step starts from: the zero tile. -/
abbrev start : Vec F S2048x1024 .f32 := k0_pay1 (F := F)

/-- The output tile: the running tile plus the bias row laid along the rows. -/
abbrev withBias (acc : Vec F S2048x1024 .f32) (x2 : Vec F S1x1024 .f32) : Vec F S2048x1024 .f32 := k0_pay3 acc x2

/-- A first step along the contracted axis leaves in the scratch the zero tile plus its product: the zero store is read
    back by the accumulating store that follows it. -/
theorem scratch_first (c : Dev nD) (i : grid0.Coords) (arg3 : Memref sig .tc .vmem S2048x256 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x256 .f32) (x1 : Vec F S256x1024 .f32) (x2 : Vec F S1x1024 .f32) :
    sout0_A_0 c i arg3 harg3 arg4 harg4 arg5 harg5 arg6 harg6 arg7 harg7 hc0 hc1 x0 x1 x2 = accumulate x0 x1 (start (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) offsets_zero, View.readCov_unit_zero (S := S2048x1024) _ offsets_zero]
  simp only [View.readAt_eq_ld, harg3.read_unread, harg4.read_unread, View.ld_unit_zero (S := S2048x256) offsets_zero,
    View.ld_unit_zero (S := S256x1024) offsets_zero]

/-- A middle step leaves in the scratch what it held plus the step's product. -/
theorem scratch_middle (c : Dev nD) (i : grid0.Coords) (arg3 : Memref sig .tc .vmem S2048x256 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x256 .f32) (x1 : Vec F S256x1024 .f32) (x2 : Vec F S1x1024 .f32) (xs0 : Vec F S2048x1024 .f32) :
    sout0_B_0 c i arg3 harg3 arg4 harg4 arg5 harg5 arg6 harg6 arg7 harg7 hc0 hc1 x0 x1 x2 xs0 = accumulate x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S2048x1024) offsets_zero]
  simp only [View.readAt_eq_ld, harg3.read_unread, harg4.read_unread, harg7.read_unread,
    View.ld_unit_zero (S := S2048x256) offsets_zero, View.ld_unit_zero (S := S256x1024) offsets_zero,
    View.ld_unit_zero (S := S2048x1024) offsets_zero]

/-- The last step leaves in the scratch what it held plus the step's product, as a middle step does. -/
theorem scratch_last (c : Dev nD) (i : grid0.Coords) (arg3 : Memref sig .tc .vmem S2048x256 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x256 .f32) (x1 : Vec F S256x1024 .f32) (x2 : Vec F S1x1024 .f32) (xs0 : Vec F S2048x1024 .f32) :
    sout0_C_0 c i arg3 harg3 arg4 harg4 arg5 harg5 arg6 harg6 arg7 harg7 hc0 hc1 x0 x1 x2 xs0 = accumulate x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S2048x1024) offsets_zero]
  simp only [View.readAt_eq_ld, harg3.read_unread, harg4.read_unread, harg7.read_unread,
    View.ld_unit_zero (S := S2048x256) offsets_zero, View.ld_unit_zero (S := S256x1024) offsets_zero,
    View.ld_unit_zero (S := S2048x1024) offsets_zero]

/-- … and in the output block that scratch tile plus the bias row: the output store reads the scratch back after the
    accumulating store. -/
theorem output_last (c : Dev nD) (i : grid0.Coords) (arg3 : Memref sig .tc .vmem S2048x256 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x256 .f32) (x1 : Vec F S256x1024 .f32) (x2 : Vec F S1x1024 .f32) (xs0 : Vec F S2048x1024 .f32) :
    out0_C_3 c i arg3 harg3 arg4 harg4 arg5 harg5 arg6 harg6 arg7 harg7 hc0 hc1 x0 x1 x2 xs0 = withBias (accumulate x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S2048x1024) offsets_zero, View.readCov_unit_zero (S := S2048x1024) _ offsets_zero]
  simp only [View.readAt_eq_ld, harg3.read_unread, harg4.read_unread, harg5.read_unread, harg7.read_unread,
    View.ld_unit_zero (S := S2048x256) offsets_zero, View.ld_unit_zero (S := S256x1024) offsets_zero,
    View.ld_unit_zero (S := S2048x1024) offsets_zero, View.ld_unit_zero (S := S1x1024) offsets_zero]

end Cert.KernelIdeal.Step

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.StepAtEntry.lean ====
/-
  One grid step's payloads read at an entry, on the extended reals.

  At the ideal values the change of format before the product is the identity and the product into the zero tile is the
  textbook sum, so at entry (p, q): the starting tile is 0; a step adds  Σ_k x(p, k) · w(k, q)  over the 256 positions of
  its run to what the running tile held; and the output tile adds the bias row's entry (0, q).
-/
import proofs.«151996_j40321152975111_2_alg».proof.Proof.BodyPieces
import proofs.«151996_j40321152975111_2_alg».proof.Proof.LibPlainMatmul
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Step

open Cert.KernelIdeal Cert.KernelIdeal.Gen

/-- The starting tile is zero everywhere. -/
theorem start_apply (i : S2048x1024.Idx) : start (F := Ideal) i = 0 := by
  unfold start k0_pay1
  simp only [shapeCast_self]
  exact Ideal.ofBits_zero_f32

/-- A step adds its run's partial product to the running tile. -/
theorem accumulate_apply (x0 : Vec Ideal S2048x256 .f32) (x1 : Vec Ideal S256x1024 .f32) (acc : Vec Ideal S2048x1024 .f32)
    (p : Fin 2048) (q : Fin 1024) :
    accumulate (F := Ideal) x0 x1 acc (ix2 p q) = acc (ix2 p q) + ∑ k : Fin 256, x0 (ix2 p k) * x1 (ix2 k q) := by
  unfold accumulate k0_pay2
  simp only [shapeCast_self]
  rw [addf_apply]
  refine congrArg (acc (ix2 p q) + ·) ?_
  exact Cert.PlainMatmul.matmul_zero_apply _ none _ _ p q

/-- The output tile adds the bias row's entry in the same column. -/
theorem withBias_apply (acc : Vec Ideal S2048x1024 .f32) (x2 : Vec Ideal S1x1024 .f32) (p : Fin 2048) (q : Fin 1024) :
    withBias (F := Ideal) acc x2 (ix2 p q) = acc (ix2 p q) + x2 (ix2 0 q) := by
  unfold withBias k0_pay3
  rw [addf_apply]
  refine congrArg (acc (ix2 p q) + ·) ?_
  exact broadcastTo_apply x2 _ (ix2 p q) (ix2 0 q) (fun a => by
    match a with
    | ⟨0, _⟩ => show (0 : Nat) = if (1 : Nat) = 1 then 0 else p.val; rw [if_pos rfl]
    | ⟨1, _⟩ => show q.val = if (1024 : Nat) = 1 then 0 else q.val; rw [if_neg (by decide)])

end Cert.KernelIdeal.Step

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.BlockedDense.lean ====
/-
  A dense layer taken whole and the same layer accumulated block by block along the contracted axis.

  The layer is  out(P, Q) = Σ_k X(P, k) · W(k, Q) + B(0, Q)  over [4096, 4096] operands and a [1, 4096] bias row.  The
  tiled computation walks 128 steps numbered n = (i · 4 + j) · 16 + s: step n works on rows  i · 2048 …  of X, columns
  j · 1024 …  of W, and the s-th run of 256 contracted positions, and adds that run's partial product to a running tile.
  Over the sixteen steps of one (i, j) the partial products are the whole contraction split into sixteen consecutive runs,
  so their sum is the whole sum: only associativity and commutativity of addition on the extended reals are used, and the
  law holds whatever the entries are, infinite ones included.
-/
import Idealize.ShloMosaic.Lib.ValueIdx
import proofs.«151996_j40321152975111_2_alg».proof.Proof.LibSumBlocks

noncomputable section

namespace Cert.BlockedDense

open Idealize.ShloMosaic Idealize.ShloMosaic.ValueIdx

/-- An [a, b] matrix of extended reals. -/
abbrev Mat (a b : ℕ) : Type := (⟨2, ![a, b]⟩ : Shape).Idx → EReal

/-- Entry (P, Q) of the layer. -/
def denseAt (X W : Mat 4096 4096) (B : Mat 1 4096) (P Q : Fin 4096) : EReal :=
  (∑ k : Fin 4096, X (ix2 P k) * W (ix2 k Q)) + B (ix2 0 Q)

/-- The layer as a matrix. -/
def dense (X W : Mat 4096 4096) (B : Mat 1 4096) : Mat 4096 4096 :=
  fun i => denseAt X W B ⟨(i 0).val, idx2_lt0 i⟩ ⟨(i 1).val, idx2_lt1 i⟩

theorem dense_apply (X W : Mat 4096 4096) (B : Mat 1 4096) (P Q : Fin 4096) :
    dense X W B (ix2 P Q) = denseAt X W B P Q := rfl

/-- The row of X that row p of step n's tile is. -/
def rowAt (n : ℕ) (p : Fin 2048) : Fin 4096 := ⟨n / 64 % 2 * 2048 + p.val, by have := p.isLt; omega⟩
/-- The column of W that column q of step n's tile is. -/
def colAt (n : ℕ) (q : Fin 1024) : Fin 4096 := ⟨n / 16 % 4 * 1024 + q.val, by have := q.isLt; omega⟩
/-- The contracted position that position k of step n's run is. -/
def depthAt (n : ℕ) (k : Fin 256) : Fin 4096 := ⟨n % 16 * 256 + k.val, by have := k.isLt; omega⟩

theorem rowAt_val (n : ℕ) (p : Fin 2048) : (rowAt n p).val = n / 64 % 2 * 2048 + p.val := rfl
theorem colAt_val (n : ℕ) (q : Fin 1024) : (colAt n q).val = n / 16 % 4 * 1024 + q.val := rfl
theorem depthAt_val (n : ℕ) (k : Fin 256) : (depthAt n k).val = n % 16 * 256 + k.val := rfl

/-- Step n's partial product at entry (p, q) of its tile. -/
def stepProduct (X W : Mat 4096 4096) (n : ℕ) (p : Fin 2048) (q : Fin 1024) : EReal :=
  ∑ k : Fin 256, X (ix2 (rowAt n p) (depthAt n k)) * W (ix2 (depthAt n k) (colAt n q))

/-- The sixteen partial products of the run of steps that step t belongs to add up to the whole contraction at the entry
    of X · W that (p, q) of the tile is. -/
theorem steps_sum (X W : Mat 4096 4096) (t : ℕ) (p : Fin 2048) (q : Fin 1024) :
    ∑ s ∈ Finset.range 16, stepProduct X W (16 * (t / 16) + s) p q
      = ∑ k : Fin 4096, X (ix2 (rowAt t p) k) * W (ix2 k (colAt t q)) := by
  rw [Cert.Lib.SumBlocks.sum_fin_blocks 16 256 rfl (fun k : Fin 4096 => X (ix2 (rowAt t p) k) * W (ix2 k (colAt t q)))]
  refine Finset.sum_congr rfl fun s hs => ?_
  have hs' : s < 16 := Finset.mem_range.mp hs
  unfold stepProduct
  refine Finset.sum_congr rfl fun k _ => ?_
  have hk : k.val < 256 := k.isLt
  have hlt : s * 256 + k.val < 4096 := by omega
  rw [Cert.Lib.SumBlocks.onNat_of_lt _ _ hlt]
  have e1 : rowAt (16 * (t / 16) + s) p = rowAt t p := Fin.ext (by rw [rowAt_val, rowAt_val]; omega)
  have e2 : colAt (16 * (t / 16) + s) q = colAt t q := Fin.ext (by rw [colAt_val, colAt_val]; omega)
  have e3 : depthAt (16 * (t / 16) + s) k = ⟨s * 256 + k.val, hlt⟩ := Fin.ext (by rw [depthAt_val]; show _ = s * 256 + k.val; omega)
  rw [e1, e2, e3]

end Cert.BlockedDense

end
-- ==== Proof.Blocks.lean ====
/-
  The blocks a grid step works on, read as entries of the whole arrays.

  Step t = (i · 4 + j) · 16 + s of the grid fetches block (i, s) of the left operand ([2048, 256] blocks), block (s, j) of
  the right operand ([256, 1024] blocks) and block (0, j) of the bias row ([1, 1024] blocks), and its output block is
  (i, j) ([2048, 1024] blocks).  An entry of a block sits in its array at block index × block size + its own coordinate,
  so each block entry is an entry of the whole array at a row, column or contracted position computed from t.  The right
  operand the kernel is launched on is the [1, 4096, 4096] weight re-laid as [4096, 4096] by the host beforehand.
-/
import proofs.«151996_j40321152975111_2_alg».proof.Proof.Gen.KernelIdeal.Frame
import proofs.«151996_j40321152975111_2_alg».proof.Proof.BlockedDense
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.BlockedDense

variable {F : FTy → Type} [FloatOps F]
variable (m : (ℓ : Loc nD τ sig) → Buf (Elt F) ℓ)

/-- The four index maps in closed form, decided over the grid's 128 points. -/
theorem block_indices : ∀ t : Fin cfg0.N,
    win0_0.index t (0 : Fin 2) = t.val / 64 ∧ win0_0.index t (1 : Fin 2) = t.val % 16
    ∧ win0_1.index t (0 : Fin 2) = t.val % 16 ∧ win0_1.index t (1 : Fin 2) = t.val / 16 % 4
    ∧ win0_2.index t (0 : Fin 2) = 0 ∧ win0_2.index t (1 : Fin 2) = t.val / 16 % 4
    ∧ win0_3.index t (0 : Fin 2) = t.val / 64 ∧ win0_3.index t (1 : Fin 2) = t.val / 16 % 4 :=
  (by decide +kernel : ∀ t : Fin grid0.N, _)

/-- Entry (p, k) of the left operand's block at step t. -/
theorem left_block (c : Dev nD) (t : Fin cfg0.N) (p : Fin 2048) (k : Fin 256) :
    (iblk m c 0 t : Vec F S2048x256 .f32) (ix2 p k)
      = (V m c main_arg0 : S4096x4096.Idx → Elt F .f32) (ix2 (rowAt t.val p) (depthAt t.val k)) := by
  obtain ⟨e0, e1, -⟩ := block_indices t
  have hN : t.val < 128 := lt_of_lt_of_eq t.isLt N_0
  show (V m c main_arg0 : S4096x4096.Idx → Elt F .f32) (((cfg0.win 0).blk t).view.emb (ix2 p k)) = _
  refine congrArg _ (funext fun a => Fin.ext ?_)
  match a with
  | ⟨0, _⟩ => show win0_0.index t (0 : Fin 2) * 2048 + 1 * p.val = t.val / 64 % 2 * 2048 + p.val; rw [e0]; omega
  | ⟨1, _⟩ => show win0_0.index t (1 : Fin 2) * 256 + 1 * k.val = t.val % 16 * 256 + k.val; rw [e1]; omega

/-- Entry (k, q) of the right operand's block at step t. -/
theorem right_block (c : Dev nD) (t : Fin cfg0.N) (k : Fin 256) (q : Fin 1024) :
    (iblk m c 1 t : Vec F S256x1024 .f32) (ix2 k q)
      = (V m c main_v0 : S4096x4096.Idx → Elt F .f32) (ix2 (depthAt t.val k) (colAt t.val q)) := by
  obtain ⟨-, -, e0, e1, -⟩ := block_indices t
  show (V m c main_v0 : S4096x4096.Idx → Elt F .f32) (((cfg0.win 1).blk t).view.emb (ix2 k q)) = _
  refine congrArg _ (funext fun a => Fin.ext ?_)
  match a with
  | ⟨0, _⟩ => show win0_1.index t (0 : Fin 2) * 256 + 1 * k.val = t.val % 16 * 256 + k.val; rw [e0]; omega
  | ⟨1, _⟩ => show win0_1.index t (1 : Fin 2) * 1024 + 1 * q.val = t.val / 16 % 4 * 1024 + q.val; rw [e1]; omega

/-- Entry (0, q) of the bias row's block at step t. -/
theorem bias_block (c : Dev nD) (t : Fin cfg0.N) (q : Fin 1024) :
    (iblk m c 2 t : Vec F S1x1024 .f32) (ix2 0 q)
      = (V m c main_arg2 : S1x4096.Idx → Elt F .f32) (ix2 0 (colAt t.val q)) := by
  obtain ⟨-, -, -, -, e0, e1, -⟩ := block_indices t
  show (V m c main_arg2 : S1x4096.Idx → Elt F .f32) (((cfg0.win 2).blk t).view.emb (ix2 0 q)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * q.val = t.val / 16 % 4 * 1024 + q.val; rw [e1]; omega

/-- The right operand as the region finds it: the weight re-laid as a matrix. -/
theorem right_operand (c : Dev nD) :
    (V m c main_v0 : S4096x4096.Idx → Elt F .f32)
      = shapeCast S4096x4096 (m ((c : Thread nD τ).loc main_arg1)) shapeCasts_S1x4096x4096_S4096x4096 := by
  dsimp only [Gen.V, Gen.hostOps0]
  after_results
  rfl

end Cert.KernelIdeal.Blocks

end
-- ==== Proof.Accumulated.lean ====
/-
  The running tile after every step, and the output tile at the end of a run.

  Steps 16·r, …, 16·r + 15 of the grid are one run: they share an output block, the first resets the running tile and each
  adds its partial product.  So after step t the running tile holds, entry by entry, the sum of the partial products of the
  steps from the start of t's run up to t; at the run's last step that is the whole contraction (sixteen runs of 256 make the
  4096 contracted positions), and the output tile stored there is that plus the bias row: the dense layer's entries for the
  rows and columns of the run's output block.
-/
import proofs.«151996_j40321152975111_2_alg».proof.Proof.Gen.KernelIdeal.Value
import proofs.«151996_j40321152975111_2_alg».proof.Proof.StepAtEntry
import proofs.«151996_j40321152975111_2_alg».proof.Proof.Blocks

noncomputable section

open Idealize.ShloMosaic Idealize.ShloMosaic.TcCoe Idealize.SL.Sem Idealize.ShloMosaic.ValueIdx

namespace Cert.KernelIdeal.Tile

open Cert.KernelIdeal Cert.KernelIdeal.Gen Cert.KernelIdeal.Step Cert.KernelIdeal.Blocks Cert.BlockedDense

variable (m : (ℓ : Loc nD τ sig) → Buf (Elt Ideal) ℓ)

/-- The left operand, the right operand and the bias row as the region finds them. -/
abbrev left (c : Dev nD) : Mat 4096 4096 := (V m c main_arg0 : S4096x4096.Idx → Elt Ideal .f32)
abbrev right (c : Dev nD) : Mat 4096 4096 := (V m c main_v0 : S4096x4096.Idx → Elt Ideal .f32)
abbrev biasRow (c : Dev nD) : Mat 1 4096 := (V m c main_arg2 : S1x4096.Idx → Elt Ideal .f32)

/-- Step n's partial product as a function of the tile's index. -/
def addend (c : Dev nD) (n : ℕ) (i : S2048x1024.Idx) : EReal :=
  stepProduct (left m c) (right m c) n ⟨(i 0).val, idx2_lt0 i⟩ ⟨(i 1).val, idx2_lt1 i⟩

/-- A step on the blocks of point n adds that point's partial product, entry by entry. -/
theorem step_entry (c : Dev nD) (n : ℕ) (hb : n < cfg0.N) (acc : Vec Ideal S2048x1024 .f32) (i : S2048x1024.Idx) :
    accumulate (F := Ideal) (iblk m c 0 (⟨n, hb⟩ : Fin cfg0.N)) (iblk m c 1 (⟨n, hb⟩ : Fin cfg0.N)) acc i = acc i + addend m c n i := by
  obtain ⟨p, q, rfl⟩ : ∃ (p : Fin 2048) (q : Fin 1024), i = ix2 p q := ⟨i 0, i 1, eq_ix2 i⟩
  refine (accumulate_apply (iblk m c 0 (⟨n, hb⟩ : Fin cfg0.N)) (iblk m c 1 (⟨n, hb⟩ : Fin cfg0.N)) acc p q).trans ?_
  refine congrArg (acc (ix2 p q) + ·) ?_
  show _ = stepProduct (left m c) (right m c) n p q
  unfold stepProduct
  exact Finset.sum_congr rfl fun k _ => congrArg₂ (· * ·) (left_block m c (⟨n, hb⟩ : Fin cfg0.N) p k) (right_block m c (⟨n, hb⟩ : Fin cfg0.N) k q)

/-- At the first step of a run the scratch is reset: whatever it held, it ends at the zero tile plus the step's product. -/
theorem scratch_at_reset (c : Dev nD) (n : ℕ) (hb : n < cfg0.N) (h0 : n % 16 = 0) (acc : Vec Ideal S2048x1024 .f32) :
    Value.scAt0_0 m c n hb acc = accumulate (F := Ideal) (iblk m c 0 (⟨n, hb⟩ : Fin cfg0.N)) (iblk m c 1 (⟨n, hb⟩ : Fin cfg0.N)) (start (F := Ideal)) := by
  have h1 : ¬n % 16 = 15 := by omega
  unfold Value.scAt0_0
  rw [dif_pos h0, dif_neg h1]
  exact scratch_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N))

/-- At every other step the scratch ends at what it held plus the step's product. -/
theorem scratch_at_step (c : Dev nD) (n : ℕ) (hb : n < cfg0.N) (h0 : ¬n % 16 = 0) (acc : Vec Ideal S2048x1024 .f32) :
    Value.scAt0_0 m c n hb acc = accumulate (F := Ideal) (iblk m c 0 (⟨n, hb⟩ : Fin cfg0.N)) (iblk m c 1 (⟨n, hb⟩ : Fin cfg0.N)) acc := by
  unfold Value.scAt0_0
  rw [dif_neg h0]
  by_cases h1 : n % 16 = 15
  · rw [dif_pos h1]
    exact scratch_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc
  · rw [dif_neg h1]
    exact scratch_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc

/-- After step t the running tile holds the sum of the partial products of the steps of t's run up to t. -/
theorem scratch_after (c : Dev nD) (t : Fin cfg0.N) (i : S2048x1024.Idx) :
    (outsAt0 m c t.val t.isLt).2 i = ∑ s ∈ Finset.range (t.val % 16 + 1), addend m c (16 * (t.val / 16) + s) i := by
  rw [Value.soutsAt0_0_eq m c t]
  refine (Pipeline.accAt_add_apply _ (Value.scAt0_0 m c) (fun _ => (0 : EReal)) (addend m c) (16 * (t.val / 16)) 15
    (fun h i => ?_) (fun n h acc i h1 h2 => ?_) (t.val % 16) (by omega) _ i).trans (zero_add _)
  · show Value.scAt0_0 m c (16 * (t.val / 16)) h _ i = _
    rw [scratch_at_reset m c _ h (by omega), step_entry, start_apply]
  · rw [scratch_at_step m c n h (by omega) acc]
    exact step_entry m c n h acc i

/-- At the last step of a run the output tile is the running tile plus the bias row. -/
theorem output_is_scratch_plus_bias (c : Dev nD) (t : Fin cfg0.N) (h15 : t.val % 16 = 15) :
    (outsAt0 m c t.val t.isLt).1 = withBias (F := Ideal) ((outsAt0 m c t.val t.isLt).2) (iblk m c 2 t) := by
  have h0 : ¬t.val % 16 = 0 := by omega
  rw [outsAt0_C m c t h0 h15]
  dsimp only
  exact (output_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans
    (congrArg (fun a => withBias (F := Ideal) a (iblk m c 2 t)) (scratch_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).symm)

/-- At the last step of a run the output tile holds the dense layer's entries of the run's output block. -/
theorem output_tile (c : Dev nD) (t : Fin cfg0.N) (h15 : t.val % 16 = 15) (i : S2048x1024.Idx) :
    (outsAt0 m c t.val t.isLt).1 i
      = denseAt (left m c) (right m c) (biasRow m c) (rowAt t.val ⟨(i 0).val, idx2_lt0 i⟩) (colAt t.val ⟨(i 1).val, idx2_lt1 i⟩) := by
  obtain ⟨p, q, rfl⟩ : ∃ (p : Fin 2048) (q : Fin 1024), i = ix2 p q := ⟨i 0, i 1, eq_ix2 i⟩
  rw [output_is_scratch_plus_bias m c t h15]
  refine (withBias_apply ((outsAt0 m c t.val t.isLt).2) (iblk m c 2 t) p q).trans ?_
  rw [scratch_after m c t (ix2 p q), h15]
  show (∑ s ∈ Finset.range 16, stepProduct (left m c) (right m c) (16 * (t.val / 16) + s) p q) + _ = _
  rw [steps_sum, bias_block m c t q]
  rfl

end Cert.KernelIdeal.Tile

end
-- ==== Proof.KernelValue.lean ====
/-
  The kernel's result array is the dense layer of its arguments.

  The output block of a run of sixteen steps is written back once, after the run's last step, and holds the dense layer's
  entries for the block's rows and columns; the eight runs' output blocks, [2048, 1024] each, tile the [4096, 4096] result
  (the block of entry (P, Q) is (P / 2048, Q / 1024), written back by step ((P / 2048) · 4 + Q / 1024) · 16 + 15).  So after
  the run the result array is the dense layer of the input, the weight re-laid as a matrix, and the bias row, as launched.
-/
import proofs.«151996_j40321152975111_2_alg».proof.Proof.Accumulated

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks Cert.KernelIdeal.Tile Cert.BlockedDense

variable (m : (ℓ : Loc nD τ sig) → Buf (Elt Ideal) ℓ) (ρ : Dev nD → PrngReg)

/-- The dense layer of the arrays as the region finds them. -/
abbrev result (c : Dev nD) : S4096x4096.Idx → Elt Ideal .f32 := dense (left m c) (right m c) (biasRow m c)

/-- What a point that writes the output block back writes is that block of the dense layer. -/
theorem flushed_eq (c : Dev nD) (t : Fin cfg0.N) (hf : (cfg0.win 3).flush t = true) :
    (dats m 0 c).flushed 3 t = ((cfg0.win 3).blk t).view.read (Elt Ideal) (result m c) := by
  have h15 : t.val % 16 = 15 := (flush0_3 t).mp hf
  have hN : t.val < 128 := lt_of_lt_of_eq t.isLt N_0
  obtain ⟨-, -, -, -, -, -, e0, e1⟩ := block_indices t
  rw [Value.flushed3]
  funext j
  refine (output_tile m c t h15 _).trans ?_
  show denseAt (left m c) (right m c) (biasRow m c) _ _
    = dense (left m c) (right m c) (biasRow m c) (((cfg0.win 3).blk t).view.emb j)
  unfold dense
  refine congrArg₂ (denseAt (left m c) (right m c) (biasRow m c)) (Fin.ext ?_) (Fin.ext ?_)
  · show t.val / 64 % 2 * 2048 + (j 0).val = win0_3.index t (0 : Fin 2) * 2048 + 1 * (j 0).val
    rw [e0]; omega
  · show t.val / 16 % 4 * 1024 + (j 1).val = win0_3.index t (1 : Fin 2) * 1024 + 1 * (j 1).val
    rw [e1]; omega

/-- An entry of the result is in point t's output block iff each coordinate is in the block's range on its axis. -/
theorem mem_block (t : Fin cfg0.N) (i : S4096x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v1).slice (win0_3.rect t)).set ↔ _
  rw [View.set_slice_whole, Rect.mem_set_unit]
  exact Iff.rfl

/-- Every entry of the result is in the output block of a point that writes it back. -/
theorem covered (i : S4096x4096.Idx) :
    ∃ t : Fin cfg0.N, (cfg0.win 3).flush t = true ∧ i ∈ ((cfg0.win 3).blk t).view.set := by
  have hi0 : (i 0).val < 4096 := idx2_lt0 i
  have hi1 : (i 1).val < 4096 := idx2_lt1 i
  obtain ⟨t, ht⟩ : ∃ t : Fin cfg0.N, t.val = ((i 0).val / 2048 * 4 + (i 1).val / 1024) * 16 + 15 :=
    ⟨⟨_, by rw [show cfg0.N = 128 from N_0]; omega⟩, rfl⟩
  obtain ⟨-, -, -, -, -, -, e0, e1⟩ := block_indices t
  refine ⟨t, (flush0_3 t).mpr (by omega), ?_⟩
  rw [mem_block]
  intro a
  match a with
  | ⟨0, _⟩ =>
    show win0_3.index t (0 : Fin 2) * 2048 ≤ (i 0).val ∧ (i 0).val < win0_3.index t (0 : Fin 2) * 2048 + 2048
    rw [e0]; omega
  | ⟨1, _⟩ =>
    show win0_3.index t (1 : Fin 2) * 1024 ≤ (i 1).val ∧ (i 1).val < win0_3.index t (1 : Fin 2) * 1024 + 1024
    rw [e1]; omega

/-- The result array after the run is the dense layer of the arrays as the region finds them. -/
theorem final (c : Dev nD) : (dats m 0 c).arrAt 3 cfg0.N = result m c :=
  (dats m 0 c).arrAt_eq_of_cover 3 (result m c) (flushed_eq m c) covered

/-- … which are the launch arrays, the weight re-laid as a matrix. -/
theorem result_eq (c : Dev nD) :
    result m c = dense (m ((c : Thread nD τ).loc main_arg0))
      (shapeCast S4096x4096 (m ((c : Thread nD τ).loc main_arg1)) shapeCasts_S1x4096x4096_S4096x4096)
      (m ((c : Thread nD τ).loc main_arg2)) := by
  show dense (V m c main_arg0 : S4096x4096.Idx → Elt Ideal .f32) (V m c main_v0 : S4096x4096.Idx → Elt Ideal .f32)
    (V m c main_arg2 : S1x4096.Idx → Elt Ideal .f32) = _
  rw [right_operand m c, V_main_arg0 m c, V_main_arg2 m c]

/-- Every weakly fair execution of the kernel's program ends with the result array at the dense layer of the arguments and
    the arguments unchanged. -/
theorem run : θ_run defs (onTc (τ := τ) (main (F := Ideal))) ⟨m, fun _ => 0, ρ⟩ fun r => ∀ c : Dev nD,
      r.2.mem ((c : Thread nD τ).loc main_v1) = dense (m ((c : Thread nD τ).loc main_arg0))
          (shapeCast S4096x4096 (m ((c : Thread nD τ).loc main_arg1)) shapeCasts_S1x4096x4096_S4096x4096)
          (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1.trans (final m c)).trans (result_eq m c), (h c).2⟩)
    (Value.run_blocks m ρ)

end Cert.KernelIdeal.Whole

end
-- ==== Proof.RefDense.lean ====
/-
  The reference computes the dense layer.

  Its four host operations — the weight re-laid as a matrix, the product with the input contracted over the shared axis,
  the bias row laid along the rows, the sum — give, at entry (P, Q) and on the extended reals,
  Σ_k x(P, k) · w(k, Q) + b(0, Q).
-/
import proofs.«151996_j40321152975111_2_alg».proof.Proof.Gen.ReferenceIdeal.Read
import proofs.«151996_j40321152975111_2_alg».proof.Proof.BlockedDense
import Idealize.ShloMosaic.Lib.ValueIdx

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read Cert.BlockedDense

/-- The reference's result is the dense layer of its input, its weight re-laid as a matrix, and its bias row. -/
theorem result_is_dense (x0 : (⟨S4096x4096, .f32⟩ : BufTy).Contents (Elt Ideal))
    (x1 : (⟨S1x4096x4096, .f32⟩ : BufTy).Contents (Elt Ideal)) (x2 : (⟨S1x4096, .f32⟩ : BufTy).Contents (Elt Ideal)) :
    val_main_v3 (F := Ideal) x0 x1 x2
      = dense x0 (shapeCast S4096x4096 x1 shapeCasts_S1x4096x4096_S4096x4096) x2 := by
  funext i
  obtain ⟨P, Q, rfl⟩ : ∃ (P Q : Fin 4096), i = ix2 P Q := ⟨i 0, i 1, eq_ix2 i⟩
  rw [val_main_v3_apply, val_main_v1_apply, val_main_v2_apply, dense_apply]
  have el : ∀ k : Fin 4096, lidx_main_v1 (ix2 P Q) k = ix2 P k := fun k => funext fun a => Fin.ext (by
    match a with | ⟨0, _⟩ => rfl | ⟨1, _⟩ => rfl)
  have er : ∀ k : Fin 4096, ridx_main_v1 (ix2 P Q) k = ix2 k Q := fun k => funext fun a => Fin.ext (by
    match a with | ⟨0, _⟩ => rfl | ⟨1, _⟩ => rfl)
  have eb : idx_main_v2 (ix2 P Q) = ix2 0 Q := funext fun a => Fin.ext (by
    match a with | ⟨0, _⟩ => rfl | ⟨1, _⟩ => rfl)
  simp only [el, er, eb]
  rfl

end Cert.ReferenceIdeal.RefValue

end
-- ==== Proof.lean ====
/-
  A tiled dense layer against  x · w + b.

  The kernel computes  out = x · w + b  for x : [4096, 4096], w : [1, 4096, 4096] (re-laid as a [4096, 4096] matrix) and a
  bias row b : [1, 4096], tile by tile: a [2048, 1024] output tile is accumulated in a scratch buffer over sixteen steps
  along the contracted axis, each adding the product of a [2048, 256] block of x and a [256, 1024] block of w (the blocks
  passed through a narrower float format first, which on the extended reals is the identity), and the bias row is added
  once, when the tile is stored after the last step.  The reference is one contraction over all 4096 positions, plus the
  bias row laid along the rows.

  On the extended reals the two agree entry by entry: the whole contraction is the sum of its sixteen consecutive runs of
  256 positions, by associativity and commutativity of addition alone — no entry need be finite, so the precondition is
  not used.  The idealized kernel is the kernel's own text read on the extended reals (nothing was rewritten), and the
  three programs run to completion leaving their arguments as they were.
-/
import proofs.«151996_j40321152975111_2_alg».proof.Defs
import proofs.«151996_j40321152975111_2_alg».proof.Proof.Gen.Kernel
import proofs.«151996_j40321152975111_2_alg».proof.Proof.Gen.Kernel.Frame
import proofs.«151996_j40321152975111_2_alg».proof.Proof.Gen.KernelIdeal
import proofs.«151996_j40321152975111_2_alg».proof.Proof.Gen.KernelIdeal.Frame
import proofs.«151996_j40321152975111_2_alg».proof.Proof.Gen.KernelIdeal.Value
import proofs.«151996_j40321152975111_2_alg».proof.Proof.Gen.ReferenceIdeal
import proofs.«151996_j40321152975111_2_alg».proof.Proof.Gen.ReferenceIdeal.Run
import proofs.«151996_j40321152975111_2_alg».proof.Proof.Gen.ReferenceIdeal.Read
import proofs.«151996_j40321152975111_2_alg».proof.Proof.Gen.Pre_finite_inputs
import proofs.«151996_j40321152975111_2_alg».proof.Proof.KernelValue
import proofs.«151996_j40321152975111_2_alg».proof.Proof.RefDense
import Idealize.ShloMosaic.Adequacy
import Idealize.ShloMosaic.Init

noncomputable section

namespace Cert.Proof

open Idealize.ShloMosaic Idealize.ShloMosaic.TcCoe Idealize.SL.Sem

/-- The kernel's program runs to completion and leaves its arguments unchanged. -/
theorem frame_kernel : Cert.frame_Kernel := fun m ρ _ => Cert.Kernel.Gen.frame m ρ

/-- So does the same program read on the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- On the extended reals the kernel's result array and the reference's are both the dense layer of arguments that agree. -/
theorem algebraic : Cert.algebraic_KernelIdeal_ReferenceIdeal := by
  intro m ρ m' ρ' _ hagree
  refine ⟨fun c => Cert.BlockedDense.dense (m ((c.tc : Thread Cert.KernelIdeal.nD Cert.KernelIdeal.τ).loc Cert.KernelIdeal.main_arg0))
      (shapeCast Cert.KernelIdeal.S4096x4096 (m ((c.tc : Thread Cert.KernelIdeal.nD Cert.KernelIdeal.τ).loc Cert.KernelIdeal.main_arg1))
        Cert.KernelIdeal.Facts₀.shapeCasts_S1x4096x4096_S4096x4096)
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_is_dense,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
